-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000x5x128 : Shape := ⟨3, ![100000, 5, 128]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x5x128 : S_.BroadcastsInDim S100000x5x128 (![] : Fin 0 → Fin S100000x5x128.rank)
  reducesTo_S100000x5x128_S_d0_1_2 : S100000x5x128.ReducesTo [0, 1, 2] S_

variable [Facts]

def fn {F : FTy → Type} [FloatOps F] (main_arg0 : FVec F S100000x128 .f32) (main_arg1 : IVec S2x3200000 32) (main_arg2 : FVec F S100000x5x128 .f32) (main_arg3 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x5x128 .f32 := Host.absf main_arg2
  let main_cst_0 : FVec F S_ .f32 := constant S_ .f32 0x7F800000#32
  let main_v5 : FVec F S100000x5x128 .f32 := broadcastInDim S100000x5x128 ![] bcast_S_S100000x5x128 main_cst_0
  let main_v6 : IVec S100000x5x128 1 := cmpf .olt main_v4 main_v5
  let main_c_1 : IVec S_ 1 := constantI S_ 1 1#1
  let main_v7 : IVec S_ 1 := (fun x v => Host.reduce IntOp.andi x v reducesTo_S100000x5x128_S_d0_1_2 h_S_) main_v6 main_c_1
  let main_v8 : IVec S_ 1 := andi main_v3 main_v7
  main_v8
-- ==== Kernel.lean ====
abbrev S100000x128 : Shape := ⟨2, ![100000, 128]⟩
abbrev S2x3200000 : Shape := ⟨2, ![2, 3200000]⟩
abbrev S100000x5x128 : Shape := ⟨3, ![100000, 5, 128]⟩
abbrev S100000 : Shape := ⟨1, ![100000]⟩
abbrev S500000x128 : Shape := ⟨2, ![500000, 128]⟩
abbrev S600000x128 : Shape := ⟨2, ![600000, 128]⟩
abbrev S10000x128 : Shape := ⟨2, ![10000, 128]⟩
abbrev S_ : Shape := ⟨0, ![]⟩
abbrev S500000 : Shape := ⟨1, ![500000]⟩
abbrev S100000x5 : Shape := ⟨2, ![100000, 5]⟩
abbrev S100000x1 : Shape := ⟨2, ![100000, 1]⟩
abbrev S100000x10 : Shape := ⟨2, ![100000, 10]⟩
abbrev S1000000 : Shape := ⟨1, ![1000000]⟩
abbrev S1x1000000 : Shape := ⟨2, ![1, 1000000]⟩
abbrev S2x1000000 : Shape := ⟨2, ![2, 1000000]⟩
abbrev S2x4200000 : Shape := ⟨2, ![2, 4200000]⟩

abbrev nBuf : Space → Nat
  | .hbm => 24
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000x5x128, .f32⟩
  | .hbm, ⟨3, _⟩ => ⟨S100000, .i32⟩
  | .hbm, ⟨4, _⟩ => ⟨S500000x128, .f32⟩
  | .hbm, ⟨5, _⟩ => ⟨S600000x128, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S500000, .i32⟩
  | .hbm, ⟨11, _⟩ => ⟨S100000x5, .i32⟩
  | .hbm, ⟨12, _⟩ => ⟨S100000x5, .i32⟩
  | .hbm, ⟨13, _⟩ => ⟨S100000x5, .i32⟩
  | .hbm, ⟨14, _⟩ => ⟨S100000x1, .i32⟩
  | .hbm, ⟨15, _⟩ => ⟨S100000x5, .i32⟩
  | .hbm, ⟨16, _⟩ => ⟨S100000x10, .i32⟩
  | .hbm, ⟨17, _⟩ => ⟨S1000000, .i32⟩
  | .hbm, ⟨18, _⟩ => ⟨S100000x10, .i32⟩
  | .hbm, ⟨19, _⟩ => ⟨S1000000, .i32⟩
  | .hbm, ⟨20, _⟩ => ⟨S1x1000000, .i32⟩
  | .hbm, ⟨21, _⟩ => ⟨S1x1000000, .i32⟩
  | .hbm, ⟨22, _⟩ => ⟨S2x1000000, .i32⟩
  | .hbm, ⟨23, _⟩ => ⟨S2x4200000, .i32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![60], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c10_i32_0 : BitVec 32 := 10#32
  let v3 : BitVec 1 := Scalar.cmpi .sge arg0 c10_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100000x5x128_S500000x128 : S100000x5x128.ShapeCasts S500000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reducesTo_S100000_S_d0 : S100000.ReducesTo [0] S_
  h_S_ : 0 < S_.numel
  shapeCasts_S500000_S100000x5 : S500000.ShapeCasts S100000x5
  bcast_S_S100000x5 : S_.BroadcastsInDim S100000x5 (![] : Fin 0 → Fin S100000x5.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  concatenates_S100000x5_S100000x5_S100000x10_d1 : Shape.Concatenates [S100000x5, S100000x5] S100000x10 1
  shapeCasts_S100000x10_S1000000 : S100000x10.ShapeCasts S1000000
  bcast_S1000000_S1x1000000_1 : S1000000.BroadcastsInDim S1x1000000 (![1] : Fin 1 → Fin S1x1000000.rank)
  concatenates_S1x1000000_S1x1000000_S2x1000000_d0 : Shape.Concatenates [S1x1000000, S1x1000000] S2x1000000 0
  concatenates_S2x3200000_S2x1000000_S2x4200000_d1 : Shape.Concatenates [S2x3200000, S2x1000000] S2x4200000 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .f32 = 32 ∨ (Rect.block (s := S500000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S600000x128.size a
  hwx0_2 : ∀ i : grid0.Coords, EltTy.bits .f32 = 32 ∨ (Rect.block (s := S600000x128) S10000x128.size (cc0_transform_2 i) (hinb0_2 i)).WholeWords (EltTy.packing .f32)

variable [Facts₀]

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000x5x128 : Shape := ⟨3, ![100000, 5, 128]⟩
abbrev S100000 : Shape := ⟨1, ![100000]⟩
abbrev S_ : Shape := ⟨0, ![]⟩
abbrev S500000 : Shape := ⟨1, ![500000]⟩
abbrev S100000x5 : Shape := ⟨2, ![100000, 5]⟩
abbrev S100000x1 : Shape := ⟨2, ![100000, 1]⟩
abbrev S100000x10 : Shape := ⟨2, ![100000, 10]⟩
abbrev S1000000 : Shape := ⟨1, ![1000000]⟩
abbrev S1x1000000 : Shape := ⟨2, ![1, 1000000]⟩
abbrev S2x1000000 : Shape := ⟨2, ![2, 1000000]⟩
abbrev S2x4200000 : Shape := ⟨2, ![2, 4200000]⟩
abbrev S500000x128 : Shape := ⟨2, ![500000, 128]⟩
abbrev S600000x128 : Shape := ⟨2, ![600000, 128]⟩

abbrev nBuf : Space → Nat
  | .hbm => 24
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000x5x128, .f32⟩
  | .hbm, ⟨3, _⟩ => ⟨S100000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S500000, .i32⟩
  | .hbm, ⟨9, _⟩ => ⟨S100000x5, .i32⟩
  | .hbm, ⟨10, _⟩ => ⟨S100000x5, .i32⟩
  | .hbm, ⟨11, _⟩ => ⟨S100000x5, .i32⟩
  | .hbm, ⟨12, _⟩ => ⟨S100000x1, .i32⟩
  | .hbm, ⟨13, _⟩ => ⟨S100000x5, .i32⟩
  | .hbm, ⟨14, _⟩ => ⟨S100000x10, .i32⟩
  | .hbm, ⟨15, _⟩ => ⟨S1000000, .i32⟩
  | .hbm, ⟨16, _⟩ => ⟨S100000x10, .i32⟩
  | .hbm, ⟨17, _⟩ => ⟨S1000000, .i32⟩
  | .hbm, ⟨18, _⟩ => ⟨S1x1000000, .i32⟩
  | .hbm, ⟨19, _⟩ => ⟨S1x1000000, .i32⟩
  | .hbm, ⟨20, _⟩ => ⟨S2x1000000, .i32⟩
  | .hbm, ⟨21, _⟩ => ⟨S2x4200000, .i32⟩
  | .hbm, ⟨22, _⟩ => ⟨S500000x128, .f32⟩
  | .hbm, ⟨23, _⟩ => ⟨S600000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S100000_S_d0 : S100000.ReducesTo [0] S_
  h_S_ : 0 < S_.numel
  shapeCasts_S500000_S100000x5 : S500000.ShapeCasts S100000x5
  bcast_S_S100000x5 : S_.BroadcastsInDim S100000x5 (![] : Fin 0 → Fin S100000x5.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  concatenates_S100000x5_S100000x5_S100000x10_d1 : Shape.Concatenates [S100000x5, S100000x5] S100000x10 1
  shapeCasts_S100000x10_S1000000 : S100000x10.ShapeCasts S1000000
  bcast_S1000000_S1x1000000_1 : S1000000.BroadcastsInDim S1x1000000 (![1] : Fin 1 → Fin S1x1000000.rank)
  concatenates_S1x1000000_S1x1000000_S2x1000000_d0 : Shape.Concatenates [S1x1000000, S1x1000000] S2x1000000 0
  concatenates_S2x3200000_S2x1000000_S2x4200000_d1 : Shape.Concatenates [S2x3200000, S2x1000000] S2x4200000 1
  shapeCasts_S100000x5x128_S500000x128 : S100000x5x128.ShapeCasts S500000x128
  concatenates_S100000x128_S500000x128_S600000x128_d0 : Shape.Concatenates [S100000x128, S500000x128] S600000x128 0

variable [Facts₀]

class Facts : Prop extends Facts₀ where

variable [Facts]
-- ==== Proof.BlockCopy.lean ====
/-
  What one grid point leaves in the output block.

  The body is a pure copy: at a point of the first ten it stores the block it loaded from the first
  input, at a later point the block it loaded from the second input (through a shape cast between equal
  shapes, which is the identity). So the output block after the body is the first, respectively the
  second, input block, whatever the output block held before.
-/
import proofs.«171305_j56779467653371_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Rows

open Cert.KernelIdeal Cert.KernelIdeal.Gen

variable {F : FTy → Type} [FloatOps F]

/-- The zero offset of a whole-block access, as a constant function. -/
theorem hz : (![0, 0] : Fin 2 → Nat) = fun _ => 0 := funext fun a => by fin_cases a <;> rfl

/-- At a point of the first ten, the body leaves the first input's block in the output block. -/
theorem stored_first (c : Dev nD) (i : grid0.Coords) (a1 : Memref sig .tc .vmem S10000x128 .f32) (h1 : a1.IsWhole)
    (a2 : Memref sig .tc .vmem S10000x128 .f32) (h2 : a2.IsWhole) (a3 : Memref sig .tc .vmem S10000x128 .f32) (h3 : a3.IsWhole)
    (hc0 : cond0_0 i) (hc1 : ¬cond0_1 i) (x0 x1 : Vec F S10000x128 .f32) :
    out0_A_2 c i a1 h1 a2 h2 a3 h3 hc0 hc1 x0 x1 = x0 := by
  unfold out0_A_2
  rw [View.read_writes_eq_canon _ _ _ (cover0_A_2 c i a1 h1 a2 h2 a3 h3 hc0 hc1 x0 x1)]
  unfold kernelRun0_A
  dsimp only
  rw [View.canon_unit_zero hz]
  simp only [View.readAt_eq_ld, h1.read_unread, View.ld_unit_zero (S := S10000x128) hz]

/-- At a later point, the body leaves the second input's block in the output block. -/
theorem stored_second (c : Dev nD) (i : grid0.Coords) (a1 : Memref sig .tc .vmem S10000x128 .f32) (h1 : a1.IsWhole)
    (a2 : Memref sig .tc .vmem S10000x128 .f32) (h2 : a2.IsWhole) (a3 : Memref sig .tc .vmem S10000x128 .f32) (h3 : a3.IsWhole)
    (hc0 : ¬cond0_0 i) (hc1 : cond0_1 i) (x0 x1 : Vec F S10000x128 .f32) :
    out0_B_2 c i a1 h1 a2 h2 a3 h3 hc0 hc1 x0 x1 = x1 := by
  unfold out0_B_2
  rw [View.read_writes_eq_canon _ _ _ (cover0_B_2 c i a1 h1 a2 h2 a3 h3 hc0 hc1 x0 x1)]
  unfold kernelRun0_B
  dsimp only
  rw [View.canon_unit_zero hz]
  unfold k0_pay1
  simp only [View.readAt_eq_ld, h2.read_unread, View.ld_unit_zero (S := S10000x128) hz, shapeCast_self]

end Cert.KernelIdeal.Rows

end
-- ==== Proof.Stacked.lean ====
/-
  The first result as one function of its two sources: the rows of a 100000-row array followed by the
  rows of a 500000-row array, 128 lanes each. Read at an index, row `r` of the stack is row `r` of the
  first array when `r < 100000` and row `r - 100000` of the second otherwise; the lane is kept.
-/
import proofs.«171305_j56779467653371_1_alg».proof.KernelIdeal
import Idealize.ShloMosaic.Lib.Pipeline.Value

noncomputable section

open Idealize.ShloMosaic

namespace Cert.KernelIdeal.Rows

open Cert.KernelIdeal

variable {α : Type}

/-- 100000 rows and 500000 rows laid end to end along the row axis make 600000 rows. -/
theorem rows_add : Shape.Concatenates [S100000x128, S500000x128] S600000x128 0 := by decide

/-- The rows of `x` followed by the rows of `p`. -/
def stacked (x : S100000x128.Idx → α) (p : S500000x128.Idx → α) : S600000x128.Idx → α :=
  concatenate S600000x128 0 [⟨S100000x128, x⟩, ⟨S500000x128, p⟩] rows_add

/-- A row of the stack that is a row of the first array: same row, same lane. -/
theorem stacked_first (x : S100000x128.Idx → α) (p : S500000x128.Idx → α) (J : S600000x128.Idx) (I : S100000x128.Idx)
    (hrow : (I 0).val = (J 0).val) (hlane : (I 1).val = (J 1).val) : stacked x p J = x I :=
  concatenate_pair_apply_left (0 : Fin 2) x p rows_add J rfl I fun b =>
    match b with
    | ⟨0, _⟩ => hrow
    | ⟨1, _⟩ => hlane

/-- A row of the stack past the first 100000: the second array's row, 100000 less, same lane. -/
theorem stacked_second (x : S100000x128.Idx → α) (p : S500000x128.Idx → α) (J : S600000x128.Idx) (I : S500000x128.Idx)
    (hrow : (I 0).val + 100000 = (J 0).val) (hlane : (I 1).val = (J 1).val) : stacked x p J = p I :=
  concatenate_pair_apply_right (0 : Fin 2) x p rows_add J rfl rfl I
    (fun b hb =>
      match b, hb with
      | ⟨0, _⟩, hb => absurd rfl hb
      | ⟨1, _⟩, _ => hlane)
    hrow

end Cert.KernelIdeal.Rows

end
-- ==== Proof.BlocksToArray.lean ====
/-
  From the sixty output blocks to the whole first result.

  Point `t` writes back rows `10000 t … 10000 t + 9999` of the result. For `t < 10` the block it writes is
  the first source's block `t` (its rows `10000 t …`), for `t ≥ 10` the second source's block `t - 10`
  (its rows `10000 (t - 10) …`, which are rows `10000 t … - 100000`). Either way the block is the
  corresponding block of the two sources stacked, and the sixty blocks tile all 600000 rows, so the array the
  region leaves is the stack.
-/
import proofs.«171305_j56779467653371_1_alg».proof.Proof.BlockCopy
import proofs.«171305_j56779467653371_1_alg».proof.Proof.Stacked

noncomputable section

open Idealize.ShloMosaic Idealize.ShloMosaic.TcCoe Idealize.SL.Sem
open Idealize.ShloMosaic.Pipeline (Dat)

namespace Cert.KernelIdeal.Rows

open Cert.KernelIdeal Cert.KernelIdeal.Gen

variable {F : FTy → Type} [FloatOps F]
variable (m : (ℓ : Loc nD τ sig) → Buf (Elt F) ℓ)

/-- The block index maps over the sixty points: the output's block row is the point, the first source's is the
    point while it is below ten, the second source's is ten behind from point ten on; every lane block is block zero. -/
theorem block_rows : ∀ t : Fin cfg0.N,
    win0_2.index t (0 : Fin 2) = t.val ∧ win0_2.index t (1 : Fin 2) = 0
    ∧ win0_0.index t (1 : Fin 2) = 0 ∧ win0_1.index t (1 : Fin 2) = 0
    ∧ (t.val < 10 → win0_0.index t (0 : Fin 2) = t.val)
    ∧ (10 ≤ t.val → win0_1.index t (0 : Fin 2) + 10 = t.val) :=
  (by decide +kernel : ∀ t : Fin grid0.N, _)

/-- Before point ten the output block is left holding the first source's block. -/
theorem left_first (c : Dev nD) (t : Fin cfg0.N) (h0 : t.val < 10) : outsAt0 m c t.val t.isLt = iblk m c 0 t :=
  (outsAt0_A m c t h0 (by omega)).trans
    (stored_first c (grid0.coords t) (ms0_0 t) (hs0_0 t) (ms0_1 t) (hs0_1 t) (ms0_2 t) (hs0_2 t) _ _ (iblk m c 0 t) (iblk m c 1 t))

/-- From point ten on it is left holding the second source's block. -/
theorem left_second (c : Dev nD) (t : Fin cfg0.N) (h1 : 10 ≤ t.val) : outsAt0 m c t.val t.isLt = iblk m c 1 t :=
  (outsAt0_B m c t (by omega) h1).trans
    (stored_second c (grid0.coords t) (ms0_0 t) (hs0_0 t) (ms0_1 t) (hs0_1 t) (ms0_2 t) (hs0_2 t) _ _ (iblk m c 0 t) (iblk m c 1 t))

/-- What point `t` writes back is block `t` of the two sources stacked. -/
theorem flushed_eq (c : Dev nD) (t : Fin cfg0.N) :
    (dats m 0 c).flushed 2 t = ((cfg0.win 2).blk t).view.read (Elt F)
      (stacked (V m c main_arg0 : S100000x128.Idx → Elt F .f32) (V m c main_v0 : S500000x128.Idx → Elt F .f32)) := by
  show (cfg0.win 2).cut (grid0.coords t) ((dats m 0 c).after 2 t) = _
  rw [after0_2]
  obtain ⟨r2, l2, l0, l1, r0, r1⟩ := block_rows t
  by_cases h0 : t.val < 10
  · rw [left_first m c t h0]
    funext j
    show V m c main_arg0 (((cfg0.win 0).blk t).view.emb j)
      = stacked (V m c main_arg0 : S100000x128.Idx → Elt F .f32) (V m c main_v0 : S500000x128.Idx → Elt F .f32) (((cfg0.win 2).blk t).view.emb j)
    refine (stacked_first _ _ _ _ ?_ ?_).symm
    · show win0_0.index t (0 : Fin 2) * 10000 + 1 * (j 0).val = win0_2.index t (0 : Fin 2) * 10000 + 1 * (j 0).val
      rw [r0 h0, r2]
    · show win0_0.index t (1 : Fin 2) * 128 + 1 * (j 1).val = win0_2.index t (1 : Fin 2) * 128 + 1 * (j 1).val
      rw [l0, l2]
  · have h1 : 10 ≤ t.val := by omega
    rw [left_second m c t h1]
    funext j
    show V m c main_v0 (((cfg0.win 1).blk t).view.emb j)
      = stacked (V m c main_arg0 : S100000x128.Idx → Elt F .f32) (V m c main_v0 : S500000x128.Idx → Elt F .f32) (((cfg0.win 2).blk t).view.emb j)
    refine (stacked_second _ _ _ _ ?_ ?_).symm
    · show win0_1.index t (0 : Fin 2) * 10000 + 1 * (j 0).val + 100000 = win0_2.index t (0 : Fin 2) * 10000 + 1 * (j 0).val
      have e := r1 h1
      rw [r2]
      omega
    · show win0_1.index t (1 : Fin 2) * 128 + 1 * (j 1).val = win0_2.index t (1 : Fin 2) * 128 + 1 * (j 1).val
      rw [l1, l2]

/-- An index of the result lies in point `t`'s block iff each coordinate lies in the block's range on its axis. -/
theorem mem_blk (t : Fin cfg0.N) (i : S600000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v1).slice (win0_2.rect t)).set ↔ _
  rw [View.set_slice_whole, Rect.mem_set_unit]
  exact Iff.rfl

/-- Every row of the result is in the block of the point `row / 10000`. -/
theorem covered (i : S600000x128.Idx) : ∃ t : Fin cfg0.N, (cfg0.win 2).flush t = true ∧ i ∈ ((cfg0.win 2).blk t).view.set := by
  have hi0 : (i 0).val < 600000 := (i 0).isLt
  have hi1 : (i 1).val < 128 := (i 1).isLt
  have hN : cfg0.N = 60 := N_0
  let t : Fin cfg0.N := ⟨(i 0).val / 10000, by rw [hN]; omega⟩
  obtain ⟨r2, l2, -, -, -, -⟩ := block_rows t
  have ht : t.val = (i 0).val / 10000 := rfl
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [r2, ht]; omega
  | ⟨1, _⟩ =>
    show win0_2.index t (1 : Fin 2) * 128 ≤ (i 1).val ∧ (i 1).val < win0_2.index t (1 : Fin 2) * 128 + 128
    rw [l2]; omega

/-- The second source as the region finds it: the three-axis argument with its first two axes merged. -/
theorem second_source (c : Dev nD) :
    (V m c main_v0 : S500000x128.Idx → Elt F .f32)
      = shapeCast S500000x128 (m ((c : Thread nD τ).loc main_arg2)) shapeCasts_S100000x5x128_S500000x128 := by
  dsimp only [Gen.V, Gen.V0]
  simp only [Gen.hostOps0, List.flatten_cons, List.flatten_nil, List.append_nil, List.cons_append, List.nil_append]
  after_results
  rfl

/-- The first result after the region: the first argument's rows followed by the merged rows of the third argument. -/
theorem result_rows (c : Dev nD) :
    (dats m 0 c).arrAt 2 cfg0.N
      = stacked (m ((c : Thread nD τ).loc main_arg0))
          (shapeCast S500000x128 (m ((c : Thread nD τ).loc main_arg2)) shapeCasts_S100000x5x128_S500000x128) := by
  rw [← second_source m c, ← V_main_arg0 m c]
  exact (dats m 0 c).arrAt_eq_of_cover 2 _ (fun t _ => flushed_eq m c t) covered

end Cert.KernelIdeal.Rows

end
-- ==== Proof.EdgeList.lean ====
/-
  The second result as one function of the edge array and the node ids, shared by both programs.

  With `n = max(ids) + 1`, node `i`'s five new neighbours get the ids `n + 5 i + k` (`k < 5`). Row 0 of the
  new edges lists, node by node, the node's id five times and then its five new ids; row 1 lists the
  same with the two halves swapped; both rows (one million entries each) are appended to the
  given edge array along its second axis. Both programs compute this with the same integer operations in
  the same order, so the function is only named here and never opened.
-/
import proofs.«171305_j56779467653371_1_alg».proof.KernelIdeal
import proofs.«171305_j56779467653371_1_alg».proof.Proof.Gen.KernelIdeal

noncomputable section

open Idealize.ShloMosaic

namespace Cert.KernelIdeal.Edges

open Cert.KernelIdeal Cert.KernelIdeal.Gen

variable {F : FTy → Type} [FloatOps F]

/-- The edge array with the new edges appended. -/
def appended (e : (⟨S2x3200000, .i32⟩ : BufTy).Contents (Elt F)) (ids : (⟨S100000, .i32⟩ : BufTy).Contents (Elt F)) :
    (⟨S2x4200000, .i32⟩ : BufTy).Contents (Elt F) :=
  concatenate S2x4200000 1 [⟨S2x3200000, e⟩, ⟨S2x1000000, (concatenate S2x1000000 0 [⟨S1x1000000, (broadcastInDim S1x1000000 ![1] bcast_S1000000_S1x1000000_1 (shapeCast _ (concatenate S100000x10 1 [⟨S100000x5, (broadcastInDim S100000x5 ![0, 1] bcast_S100000x1_S100000x5_0_1 (broadcastInDim S100000x1 ![0] bcast_S100000_S100000x1_0 ids))⟩, ⟨S100000x5, (addi (broadcastInDim S100000x5 ![] bcast_S_S100000x5 (addi (Host.reduce IntOp.maxsi ids (constantI S_ 32 2147483648#32) reducesTo_S100000_S_d0 h_S_) (constantI S_ 32 1#32))) (shapeCast _ (iotaInDim S500000 32 0) shapeCasts_S500000_S100000x5))⟩] concatenates_S100000x5_S100000x5_S100000x10_d1) shapeCasts_S100000x10_S1000000))⟩, ⟨S1x1000000, (broadcastInDim S1x1000000 ![1] bcast_S1000000_S1x1000000_1 (shapeCast _ (concatenate S100000x10 1 [⟨S100000x5, (addi (broadcastInDim S100000x5 ![] bcast_S_S100000x5 (addi (Host.reduce IntOp.maxsi ids (constantI S_ 32 2147483648#32) reducesTo_S100000_S_d0 h_S_) (constantI S_ 32 1#32))) (shapeCast _ (iotaInDim S500000 32 0) shapeCasts_S500000_S100000x5))⟩, ⟨S100000x5, (broadcastInDim S100000x5 ![0, 1] bcast_S100000x1_S100000x5_0_1 (broadcastInDim S100000x1 ![0] bcast_S100000_S100000x1_0 ids))⟩] concatenates_S100000x5_S100000x5_S100000x10_d1) shapeCasts_S100000x10_S1000000))⟩] concatenates_S1x1000000_S1x1000000_S2x1000000_d0)⟩] concatenates_S2x3200000_S2x1000000_S2x4200000_d1

end Cert.KernelIdeal.Edges

end
-- ==== Proof.EdgeTail.lean ====
/-
  The second result of the kernel's program. The operations after the region read only the edge array and
  the node ids, neither of which the region touches, so what they leave in the second result is the shared
  edge-list function of the two arguments as launched.
-/
import proofs.«171305_j56779467653371_1_alg».proof.Proof.Gen.KernelIdeal.Frame
import proofs.«171305_j56779467653371_1_alg».proof.Proof.EdgeList
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Edges

open Cert.KernelIdeal Cert.KernelIdeal.Gen

variable {F : FTy → Type} [FloatOps F]
variable (m : (ℓ : Loc nD τ sig) → Buf (Elt F) ℓ)

set_option maxHeartbeats 2000000 in
/-- After the whole program the second result holds the edge array with the new edges appended. -/
theorem result_edges (c : Dev nD) :
    Pipeline.afterTail₀ cfgs (dats m) 0 (V0 m) [hostOps1] c main_v17
      = appended (m ((c : Thread nD τ).loc main_arg1)) (m ((c : Thread nD τ).loc main_arg3)) := by
  unfold Pipeline.afterTail₀
  show StableHlo.after hostOps1 _ (Proc.devRef .tc main_v17) = _
  after_results
  rw [Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3)),
    show V0 m c (Proc.devRef .tc main_arg1) = m ((c : Thread nD τ).loc main_arg1) from V_main_arg1 m c,
    show V0 m c (Proc.devRef .tc main_arg3) = m ((c : Thread nD τ).loc main_arg3) from V_main_arg3 m c]
  rfl

end Cert.KernelIdeal.Edges

end
-- ==== Proof.KernelRun.lean ====
/-
  The kernel's program, run: every execution ends with the first result at the two sources stacked, the
  second result at the edge array with the new edges appended, and the four arguments as launched.
-/
import proofs.«171305_j56779467653371_1_alg».proof.Proof.BlocksToArray
import proofs.«171305_j56779467653371_1_alg».proof.Proof.EdgeTail

noncomputable section

open Idealize.ShloMosaic Idealize.ShloMosaic.TcCoe Idealize.SL.Sem
open Idealize.ShloMosaic.Pipeline (Dat)

namespace Cert.KernelIdeal.Whole

open Cert.KernelIdeal Cert.KernelIdeal.Gen

variable {F : FTy → Type} [FloatOps F]
variable (m : (ℓ : Loc nD τ sig) → Buf (Elt F) ℓ) (ρ : Dev nD → PrngReg)

/-- Both results as functions of the arguments, and the arguments kept. -/
theorem run : θ_run defs (onTc (τ := τ) (main (F := F))) ⟨m, fun _ => 0, ρ⟩ fun r => ∀ c : Dev nD,
      r.2.mem ((c.tc : Thread nD τ).loc main_v1)
        = Rows.stacked (m ((c.tc : Thread nD τ).loc main_arg0))
            (shapeCast S500000x128 (m ((c.tc : Thread nD τ).loc main_arg2)) shapeCasts_S100000x5x128_S500000x128)
      ∧ r.2.mem ((c.tc : Thread nD τ).loc main_v17)
        = Edges.appended (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 2).trans (Rows.result_rows m c),
      ((h c).2 main_v17 (Pipeline.mem_restRefs_of main_v17 (by decide) (by decide))).trans (Edges.result_edges m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefSide.lean ====
/-
  The reference program, run: its first result is the same stack of the first argument's rows and the
  third argument's merged rows, its second result the same edge-list function of the second and fourth
  arguments. Both are the reference's own operations, spelt with the names used for the kernel's side.
-/
import proofs.«171305_j56779467653371_1_alg».proof.Proof.Gen.ReferenceIdeal.Run
import proofs.«171305_j56779467653371_1_alg».proof.Proof.Stacked
import proofs.«171305_j56779467653371_1_alg».proof.Proof.EdgeList

noncomputable section

open Idealize.ShloMosaic Idealize.ShloMosaic.TcCoe Idealize.SL.Sem

namespace Cert.ReferenceIdeal.RefValue

open Cert.ReferenceIdeal Cert.ReferenceIdeal.Gen

variable {F : FTy → Type} [FloatOps F]
variable (m : (ℓ : Loc nD τ sig) → Buf (Elt F) ℓ) (ρ : Dev nD → PrngReg)

/-- Both results as functions of the arguments, and the arguments kept. -/
theorem run : θ_run defs (onTc (τ := τ) (main (F := F))) ⟨m, fun _ => 0, ρ⟩ fun r => ∀ c : Dev nD,
      r.2.mem ((c.tc : Thread nD τ).loc main_v17)
        = Cert.KernelIdeal.Rows.stacked (m ((c.tc : Thread nD τ).loc main_arg0))
            (shapeCast Cert.KernelIdeal.S500000x128 (m ((c.tc : Thread nD τ).loc main_arg2)) shapeCasts_S100000x5x128_S500000x128)
      ∧ r.2.mem ((c.tc : Thread nD τ).loc main_v15)
        = Cert.KernelIdeal.Edges.appended (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2⟩)
    (Cert.ReferenceIdeal.Value.run m ρ)

end Cert.ReferenceIdeal.RefValue

end
-- ==== Proof.lean ====
/-
  The kernel computes two results. The first is a 600000 × 128 array: the 100000 rows of `x` followed by
  the 500000 rows obtained by merging the first two axes of `predicted_features`. A sixty-point grid walks
  the result in blocks of 10000 rows; the first ten points copy a block of `x`, the other fifty a block of
  the merged array, and each block lands at the rows it occupies in the stack. The reference computes the
  same array by one concatenation. The second result is the edge array with one million new edges appended;
  both programs compute it by the same integer operations, after the region in the kernel's program.

  So at the ideal instance both programs end with the same two arrays, with no arithmetic on the float
  entries at all: every entry of the first result is one entry of an argument, and the precondition (finite
  float inputs) is never used. The ideal pass rewrote nothing, so the idealized kernel is the kernel's own
  text.

  The modules: `BlockCopy` (what one point leaves in the output block), `Stacked` (the stack read at an
  index), `BlocksToArray` (the sixty blocks are the stack), `EdgeList` / `EdgeTail` (the second result),
  `KernelRun` and `RefSide` (the two programs' runs, stated with the same two functions).
-/
import proofs.«171305_j56779467653371_1_alg».proof.Defs
import proofs.«171305_j56779467653371_1_alg».proof.Proof.Gen.Kernel
import proofs.«171305_j56779467653371_1_alg».proof.Proof.Gen.Kernel.Frame
import proofs.«171305_j56779467653371_1_alg».proof.Proof.Gen.KernelIdeal
import proofs.«171305_j56779467653371_1_alg».proof.Proof.Gen.KernelIdeal.Frame
import proofs.«171305_j56779467653371_1_alg».proof.Proof.Gen.ReferenceIdeal
import proofs.«171305_j56779467653371_1_alg».proof.Proof.Gen.Pre_finite_inputs
import proofs.«171305_j56779467653371_1_alg».proof.Proof.KernelRun
import proofs.«171305_j56779467653371_1_alg».proof.Proof.RefSide
import Idealize.ShloMosaic.Adequacy
import Idealize.ShloMosaic.Init

noncomputable section

namespace Cert.Proof

open Idealize.ShloMosaic Idealize.ShloMosaic.TcCoe Idealize.SL.Sem

/-- The kernel's program runs and keeps its arguments, at the word-level instance. -/
theorem frame_kernel : Cert.frame_Kernel := fun m ρ _ => Cert.Kernel.Gen.frame m ρ

/-- The same at the ideal instance. -/
theorem frame_kernel_ideal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2)
    (Cert.ReferenceIdeal.RefValue.run (F := Ideal) m ρ)

/-- No operation was rewritten for the ideal reading. -/
theorem preserves : Cert.preserves_Kernel_KernelIdeal := trivial

/-- From memories that agree on the arguments both programs end with the stack of `x` and the merged
    `predicted_features` in the first result and the extended edge array in the second. -/
theorem algebraic : Cert.algebraic_KernelIdeal_ReferenceIdeal := by
  intro m ρ m' ρ' _ hagree
  refine ⟨_, _, Cert.KernelIdeal.Whole.run (F := Ideal) m ρ, ?_⟩
  refine (θ_run Cert.ReferenceIdeal.defs _ _).mono (fun _ h c => ⟨(h c).1.trans ?_, (h c).2.1.trans ?_, (h c).2.2⟩)
    (Cert.ReferenceIdeal.RefValue.run (F := Ideal) m' ρ')
  · rw [(hagree c).1, (hagree c).2.2.1]
  · rw [(hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
